-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x40 .f32) (main_arg6 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩

abbrev nBuf : Space → Nat
  | .hbm => 92
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x40, .f32⟩
  | .hbm, ⟨6, _⟩ => ⟨S40, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x40, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x40, .f32⟩
  | .hbm, ⟨82, _⟩ => ⟨S850000x1, .f32⟩
  | .hbm, ⟨83, _⟩ => ⟨S850000x40, .f32⟩
  | .hbm, ⟨84, _⟩ => ⟨S850000x40, .f32⟩
  | .hbm, ⟨85, _⟩ => ⟨S_, .f32⟩
  | .hbm, ⟨86, _⟩ => ⟨S50000x40, .f32⟩
  | .hbm, ⟨87, _⟩ => ⟨S850000x1, .i32⟩
  | .hbm, ⟨88, _⟩ => ⟨S50000x40, .f32⟩
  | .hbm, ⟨89, _⟩ => ⟨S1x40, .f32⟩
  | .hbm, ⟨90, _⟩ => ⟨S50000x40, .f32⟩
  | .hbm, ⟨91, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x40, .f32⟩
  | .local _ .vmem, ⟨8, _⟩ => ⟨S2000x40, .f32⟩
  | .local _ .vmem, ⟨9, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 130
  | .vmem => 0
  | .smem => 0
  | _ => 0

abbrev hbmTy0_0 (i : Nat) : BufTy := match i % 128 with
  | 0 => ⟨S50000x256, .f32⟩
  | 1 => ⟨S2x800000, .i32⟩
  | 2 => ⟨S800000, .f32⟩
  | 3 => ⟨S256x128, .f32⟩
  | 4 => ⟨S128, .f32⟩
  | 5 => ⟨S128x40, .f32⟩
  | 6 => ⟨S40, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x40, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x40, .f32⟩
  | 120 => ⟨S850000x1, .f32⟩
  | 121 => ⟨S850000x40, .f32⟩
  | 122 => ⟨S850000x40, .f32⟩
  | 123 => ⟨S_, .f32⟩
  | 124 => ⟨S50000x40, .f32⟩
  | 125 => ⟨S850000x1, .i32⟩
  | 126 => ⟨S50000x40, .f32⟩
  | 127 => ⟨S1x40, .f32⟩
  | _ => ⟨S50000x256, .f32⟩

abbrev hbmTy0_1 (i : Nat) : BufTy := match i % 128 with
  | 0 => ⟨S50000x40, .f32⟩
  | 1 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  The graph-convolution network both programs compute, as one function of the seven argument arrays.

  Nodes 0 … 49999, 800000 weighted edges (source row and destination row of the index array), one self-loop of weight 1
  appended per node: 850000 entries (r, c, w). With deg[v] the sum of w over entries whose destination is v and
  dinv = deg^(-1/2) where deg > 0 (else 0), entry e carries the coefficient norm[e] = dinv[r e] · w e · dinv[c e].
  A layer takes node features h and a bias b to
      out[v, :] = (sum over entries e with c e = v of h[r e, :] · norm[e]) + b,
  and the network is layer₂(relu(layer₁(x · W1, b1)) · W2, b2), the two products exact matrix products.

  Each piece is written with the array operations that define it: a slice and a concatenation for the lists, a
  scatter-add for a sum into destinations, a gather for a read at sources (a negative index first wrapped by the
  node count, as array indexing does), a select for the guarded reciprocal square root.
-/
import proofs.«160165_j14602888806887_1_alg».proof.Proof.Gen.ReferenceIdeal
import Idealize.ShloMosaic.PureOps.Ideal

noncomputable section

namespace Cert.Gcn

open Idealize.ShloMosaic Cert.ReferenceIdeal Cert.ReferenceIdeal.Facts₀

variable {F : FTy → Type} [FloatOps F]

/-- Row `a` of the edge index array followed by the node numbers 0 … 49999 (the self-loops): sources for the
    slice offset (0, 0), destinations for (1, 0). -/
def srcOf (ei : IVec S2x800000 32) : IVec S850000 32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

def dstOf (ei : IVec S2x800000 32) : IVec S850000 32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- The edge weights followed by weight 1 for every self-loop. -/
def wOf (ew : FVec F S800000 .f32) : FVec F S850000 .f32 :=
  concatenate S850000 0 [⟨S800000, ew⟩, ⟨S50000, (broadcastInDim S50000 ![] bcast_S_S50000 (constant S_ .f32 0x3F800000#32))⟩] concatenates_S800000_S50000_S850000_d0

/-- A node index list as a column of start indices. -/
def colOf (c : IVec S850000 32) : IVec S850000x1 32 := broadcastInDim S850000x1 ![0] bcast_S850000_S850000x1_0 c

/-- A node index list as a column of gather indices, a negative index first wrapped by the node count. -/
def wrapOf (r : IVec S850000 32) : IVec S850000x1 32 :=
  broadcastInDim S850000x1 ![0] bcast_S850000_S850000x1_0 (select (cmpi .slt r (broadcastInDim S850000 ![] bcast_S_S850000 (constantI S_ 32 0#32))) (addi r (broadcastInDim S850000 ![] bcast_S_S850000 (constantI S_ 32 50000#32))) r)

/-- The weighted in-degree of every node: the weights summed into their destinations. -/
def degOf (c : IVec S850000 32) (w : FVec F S850000 .f32) : FVec F S50000 .f32 :=
  Host.scatterAdd scatter_S50000_S850000x1_S850000_n_0_0_1 (broadcastInDim S50000 ![] bcast_S_S50000 (constant S_ .f32 0x00000000#32)) (colOf c) w

/-- deg^(-1/2) where the degree is positive, 0 elsewhere. -/
def dinvOf (deg : FVec F S50000 .f32) : FVec F S50000 .f32 :=
  select (cmpf .ogt deg (broadcastInDim S50000 ![] bcast_S_S50000 (constant S_ .f32 0x00000000#32))) (Host.rsqrt deg) (broadcastInDim S50000 ![] bcast_S_S50000 (id (constant S_ .f32 0x00000000#32)))

/-- The symmetric normalisation: entry e carries dinv[r e] · w e · dinv[c e]. -/
def normOf (r c : IVec S850000 32) (w : FVec F S850000 .f32) : FVec F S850000 .f32 :=
  mulf (mulf (Host.gather gather_S50000_S850000x1_S850000_n_0_n_n_0_1_1 (dinvOf (degOf c w)) (wrapOf r)) w) (Host.gather gather_S50000_S850000x1_S850000_n_0_n_n_0_1_1 (dinvOf (degOf c w)) (wrapOf c))

/-- One layer's aggregation at 128 features: rows of `h` gathered at the sources, scaled by the coefficients,
    summed into their destinations, the bias added to every row. -/
def agg128 (r c : IVec S850000 32) (nrm : FVec F S850000 .f32) (h : FVec F S50000x128 .f32) (b : FVec F S128 .f32) : FVec F S50000x128 .f32 :=
  addf (Host.scatterAdd scatter_S50000x128_S850000x1_S850000x128_1_0_0_1 (broadcastInDim S50000x128 ![] bcast_S_S50000x128 (constant S_ .f32 0x00000000#32)) (colOf c) (mulf (Host.gather gather_S50000x128_S850000x1_S850000x128_1_0_n_n_0_1_1128 h (wrapOf r)) (broadcastInDim S850000x128 ![0, 1] bcast_S850000x1_S850000x128_0_1 (broadcastInDim S850000x1 ![0] bcast_S850000_S850000x1_0 nrm)))) (broadcastInDim S50000x128 ![0, 1] bcast_S1x128_S50000x128_0_1 (broadcastInDim S1x128 ![1] bcast_S128_S1x128_1 b))

/-- max(·, 0), entry by entry. -/
def relu128 (a : FVec F S50000x128 .f32) : FVec F S50000x128 .f32 :=
  maximumf a (broadcastInDim S50000x128 ![] bcast_S_S50000x128 (constant S_ .f32 0x00000000#32))

/-- The same aggregation at 40 features. -/
def agg40 (r c : IVec S850000 32) (nrm : FVec F S850000 .f32) (h : FVec F S50000x40 .f32) (b : FVec F S40 .f32) : FVec F S50000x40 .f32 :=
  addf (Host.scatterAdd scatter_S50000x40_S850000x1_S850000x40_1_0_0_1 (broadcastInDim S50000x40 ![] bcast_S_S50000x40 (constant S_ .f32 0x00000000#32)) (colOf c) (mulf (Host.gather gather_S50000x40_S850000x1_S850000x40_1_0_n_n_0_1_140 h (wrapOf r)) (broadcastInDim S850000x40 ![0, 1] bcast_S850000x1_S850000x40_0_1 (broadcastInDim S850000x1 ![0] bcast_S850000_S850000x1_0 nrm)))) (broadcastInDim S50000x40 ![0, 1] bcast_S1x40_S50000x40_0_1 (broadcastInDim S1x40 ![1] bcast_S40_S1x40_1 b))

/-- The hidden features after the first layer, given the first product `xw = x · W1`. -/
def hidden (ei : IVec S2x800000 32) (ew : FVec F S800000 .f32) (xw : FVec F S50000x128 .f32) (b1 : FVec F S128 .f32) : FVec F S50000x128 .f32 :=
  relu128 (agg128 (srcOf ei) (dstOf ei) (normOf (srcOf ei) (dstOf ei) (wOf ew)) xw b1)

/-- The network's output, given the second product `hw = hidden · W2`. -/
def output (ei : IVec S2x800000 32) (ew : FVec F S800000 .f32) (hw : FVec F S50000x40 .f32) (b2 : FVec F S40 .f32) : FVec F S50000x40 .f32 :=
  agg40 (srcOf ei) (dstOf ei) (normOf (srcOf ei) (dstOf ei) (wOf ew)) hw b2

/-- The network: both products exact, [50000,256]·[256,128] and [50000,128]·[128,40]. -/
def net (x : FVec F S50000x256 .f32) (ei : IVec S2x800000 32) (ew : FVec F S800000 .f32) (W1 : FVec F S256x128 .f32)
    (b1 : FVec F S128 .f32) (W2 : FVec F S128x40 .f32) (b2 : FVec F S40 .f32) : FVec F S50000x40 .f32 :=
  output ei ew (Host.dotGeneral dot_S50000x128_S128x40_S50000x40_1_0_0_1_n_n none
    (hidden ei ew (Host.dotGeneral dot_S50000x256_S256x128_S50000x128_1_0_0_1_n_n none x W1) b1) W2) b2

end Cert.Gcn

end
-- ==== Proof.HostLines.lean ====
/-
  The host lines of the idealized kernel's @main, read stretch by stretch as pieces of the network function.

  Before the first product the lines build, from the edge index array and the edge weights, the source list, the
  destination list and the normalisation coefficients (all with the self-loops appended) and leave every argument as
  launched. Between the products they aggregate the first product's rows over the edges, add the first bias and clamp
  at zero. After the second product they aggregate its rows over the same edges and add the second bias. Each stretch
  is read from the contents it starts from; no stretch rewrites a buffer an earlier one produced.
-/
import proofs.«160165_j14602888806887_1_alg».proof.Proof.Gen.KernelIdeal.Frame
import proofs.«160165_j14602888806887_1_alg».proof.Proof.Spec
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first product -/

/-- The source list: row 0 of the edge index array, then the node numbers. -/
theorem entry_src (c : Dev nD) : W3 m ρ c (Proc.devRef .tc main_v5) = Cert.Gcn.srcOf (m ((c : Thread nD τ).loc main_arg1)) := by
  show StableHlo.after hostOps0_2 (StableHlo.after hostOps0_1 (StableHlo.after hostOps0 (W0 m ρ c))) (Proc.devRef .tc main_v5) = _
  dsimp only [hostOps0, hostOps0_1, hostOps0_2]
  after_results_simp <;> rfl

/-- The destination list: row 1 of the edge index array, then the node numbers. -/
theorem entry_dst (c : Dev nD) : W3 m ρ c (Proc.devRef .tc main_v6) = Cert.Gcn.dstOf (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

/-- The coefficients dinv[r] · w · dinv[c] over the edges with self-loops. -/
theorem entry_norm (c : Dev nD) : W3 m ρ c (Proc.devRef .tc main_v31)
    = Cert.Gcn.normOf (Cert.Gcn.srcOf (m ((c : Thread nD τ).loc main_arg1))) (Cert.Gcn.dstOf (m ((c : Thread nD τ).loc main_arg1)))
        (Cert.Gcn.wOf (m ((c : Thread nD τ).loc main_arg2))) := by
  show StableHlo.after hostOps0_2 (StableHlo.after hostOps0_1 (StableHlo.after hostOps0 (W0 m ρ c))) (Proc.devRef .tc main_v31) = _
  dsimp only [hostOps0, hostOps0_1, hostOps0_2]
  after_results_simp <;> rfl

theorem entry_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

theorem entry_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

theorem entry_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results_simp <;> rfl

theorem entry_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  dsimp only [hostOps0, hostOps0_1, hostOps0_2]
  after_results_simp <;> rfl

theorem entry_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  dsimp only [hostOps0, hostOps0_1, hostOps0_2]
  after_results_simp <;> rfl

/-! ## Between the products -/

/-- The hidden features: the first product's rows aggregated over the edges, the bias added, clamped at zero. -/
theorem mid_hidden (c : Dev nD) : W6 m ρ c (Proc.devRef .tc main_v49)
    = Cert.Gcn.relu128 (Cert.Gcn.agg128 (W4 m ρ c (Proc.devRef .tc main_v5)) (W4 m ρ c (Proc.devRef .tc main_v6)) (W4 m ρ c (Proc.devRef .tc main_v31))
        (W4 m ρ c (Proc.devRef .tc main_v32)) (W4 m ρ c (Proc.devRef .tc main_arg4))) := by
  show StableHlo.after hostOps1_1 (StableHlo.after hostOps1 (W4 m ρ c)) (Proc.devRef .tc main_v49) = _
  dsimp only [hostOps1, hostOps1_1]
  after_results_simp <;> rfl

theorem mid_src (c : Dev nD) : W6 m ρ c (Proc.devRef .tc main_v5) = W4 m ρ c (Proc.devRef .tc main_v5) := by
  show StableHlo.after hostOps1_1 (StableHlo.after hostOps1 (W4 m ρ c)) (Proc.devRef .tc main_v5) = _
  dsimp only [hostOps1, hostOps1_1]
  after_results_simp <;> rfl

theorem mid_dst (c : Dev nD) : W6 m ρ c (Proc.devRef .tc main_v6) = W4 m ρ c (Proc.devRef .tc main_v6) := by
  show StableHlo.after hostOps1_1 (StableHlo.after hostOps1 (W4 m ρ c)) (Proc.devRef .tc main_v6) = _
  dsimp only [hostOps1, hostOps1_1]
  after_results_simp <;> rfl

theorem mid_norm (c : Dev nD) : W6 m ρ c (Proc.devRef .tc main_v31) = W4 m ρ c (Proc.devRef .tc main_v31) := by
  show StableHlo.after hostOps1_1 (StableHlo.after hostOps1 (W4 m ρ c)) (Proc.devRef .tc main_v31) = _
  dsimp only [hostOps1, hostOps1_1]
  after_results_simp <;> rfl

theorem mid_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  dsimp only [hostOps1, hostOps1_1]
  after_results_simp <;> rfl

theorem mid_arg6 (c : Dev nD) : W6 m ρ c (Proc.devRef .tc main_arg6) = W4 m ρ c (Proc.devRef .tc main_arg6) := by
  show StableHlo.after hostOps1_1 (StableHlo.after hostOps1 (W4 m ρ c)) (Proc.devRef .tc main_arg6) = _
  dsimp only [hostOps1, hostOps1_1]
  after_results_simp <;> rfl

/-! ## After the second product -/

/-- The output: the second product's rows aggregated over the edges, the second bias added. -/
theorem out_lines (c : Dev nD) : W8 m ρ c (Proc.devRef .tc main_v66)
    = Cert.Gcn.agg40 (W7 m ρ c (Proc.devRef .tc main_v5)) (W7 m ρ c (Proc.devRef .tc main_v6)) (W7 m ρ c (Proc.devRef .tc main_v31))
        (W7 m ρ c (Proc.devRef .tc main_v50)) (W7 m ρ c (Proc.devRef .tc main_arg6)) := by
  show StableHlo.after hostOps2 (W7 m ρ c) (Proc.devRef .tc main_v66) = _
  dsimp only [hostOps2]
  after_results_simp <;> rfl

end Cert.KernelIdeal.Net

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Product1.lean ====
/-
  The first matrix product, x · W1, as the pipelined region leaves it: for any contents V of the buffers when the
  region is entered, the result array ends at the exact product of the arrays V holds for the two operands.

  The grid has 25 points; point t stages rows 2000·t … 2000·t + 1999 of the left operand (all 256 columns) and the whole
  right operand, and writes back rows 2000·t … 2000·t + 1999 of the result. At entry (p, q) of its block the body's
  value is the sum over k < 256 of lhs[p, k] · rhs[k, q] (rounding an exact value to a narrower format changes
  nothing), which is entry (2000·t + p, q) of the whole product. The 25 row blocks tile the result, row r lying in
  block r / 2000.
-/
import proofs.«160165_j14602888806887_1_alg».proof.Proof.Gen.KernelIdeal.Frame
import proofs.«160165_j14602888806887_1_alg».proof.Proof.LibPlainContract
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-- The body's value at entry (p, q) of its block. -/
theorem pay0_apply (x0 : Vec Ideal S2000x256 .f32) (x1 : Vec Ideal S256x128 .f32) (p : Fin 2000) (q : Fin 128) :
    k0_pay1 x0 x1 (ix2 p q) = ∑ k : Fin 256, x0 (ix2 p k) * x1 (ix2 k q) := by
  unfold k0_pay1
  exact Cert.LibPlainContract.matmul_plain_apply 2000 256 128 none _ _ p q

/-- The windows' block indices at every grid point: the left operand and the result move down one row block per
    point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … of the array. -/
theorem lhs0_apply (c : Dev nD) (t : Fin cfg0.N) (p : Fin 2000) (k : Fin 256) (r : Fin 50000) (hr : r.val = t.val * 2000 + p.val) :
    (iblk0 V c 0 t : Vec Ideal S2000x256 .f32) (ix2 p k) = (V c main_arg0 : S50000x256.Idx → Elt Ideal .f32) (ix2 r k) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The right operand's block at every point is the whole array. -/
theorem rhs0_apply (c : Dev nD) (t : Fin cfg0.N) (k : Fin 256) (q : Fin 128) :
    (iblk0 V c 1 t : Vec Ideal S256x128 .f32) (ix2 k q) = (V c main_arg3 : S256x128.Idx → Elt Ideal .f32) (ix2 k q) := by
  obtain ⟨-, -, e2, e3, -⟩ := idx0 t
  unfold iblk0
  rw [View.read_apply]
  show V c main_arg3 _ = V c main_arg3 _
  refine congrArg _ (funext fun a => Fin.ext ?_)
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- What point t writes back is block t of the whole product. -/
theorem flushed0 (c : Dev nD) (t : Fin cfg0.N) :
    (dat0 V c).flushed 2 t = ((cfg0.win 2).blk t).view.read (Elt Ideal)
      (Host.dotGeneral (F := Ideal) (φ₁ := .f32) (φ₂ := .f32) (DotDims.plain 50000 256 128) none (V c main_arg0 : FVec Ideal S50000x256 .f32) (V c main_arg3 : FVec Ideal S256x128 .f32)) := by
  show (cfg0.win 2).cut (grid0.coords t) ((dat0 V c).after 2 t) = _
  rw [after0_2]
  unfold out0_2
  rw [View.canon_unit_zero zero_off]
  simp only [View.ld_unit_zero (S := S2000x256) zero_off, View.ld_unit_zero (S := S256x128) zero_off]
  funext j
  obtain ⟨p, q, rfl⟩ : ∃ (p : Fin 2000) (q : Fin 128), j = ix2 p q :=
    ⟨⟨(j 0).val, (j 0).isLt⟩, ⟨(j 1).val, (j 1).isLt⟩, by funext a; match a with | ⟨0, _⟩ => rfl | ⟨1, _⟩ => rfl⟩
  obtain ⟨-, -, -, -, e4, e5⟩ := idx0 t
  have hN : t.val < 25 := Nat.lt_of_lt_of_eq t.isLt (N_0 : cfg0.N = 25)
  have hp : p.val < 2000 := p.isLt
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; rw [e4]; omega
    | ⟨1, _⟩ => show win0_2.index t (1 : Fin 2) * 128 + 1 * q.val = q.val; rw [e5]; omega
  show k0_pay1 (iblk0 V c 0 t) (iblk0 V c 1 t) (ix2 p q)
    = FloatOps.dotGeneral (F := Ideal) (φ₁ := .f32) (φ₂ := .f32) (DotDims.plain 50000 256 128) none .single (V c main_arg0 : FVec Ideal S50000x256 .f32) (V c main_arg3 : FVec Ideal S256x128 .f32) (((cfg0.win 2).blk t).view.emb (ix2 p q))
  rw [hemb]
  refine (pay0_apply _ _ p q).trans ?_
  refine Eq.trans ?_ (Cert.LibPlainContract.dotGeneral_plain_apply 50000 256 128 none .single _ _ _ q).symm
  exact Finset.sum_congr rfl fun k _ => congrArg₂ (· * ·) (lhs0_apply V c t p k _ rfl) (rhs0_apply V c t k q)

/-- An index of the result is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The result array after the region: the exact product of the two operand arrays as the region found them. -/
theorem final0 (c : Dev nD) :
    (dat0 V c).arrAt 2 cfg0.N = Host.dotGeneral (F := Ideal) (φ₁ := .f32) (φ₂ := .f32) (DotDims.plain 50000 256 128) none (V c main_arg0 : FVec Ideal S50000x256 .f32) (V c main_arg3 : FVec Ideal S256x128 .f32) :=
  (dat0 V c).arrAt_eq_of_cover 2 _ (fun t _ => flushed0 V c t) fun i => by
    have hi0 : (i 0).val < 50000 := (i 0).isLt
    have hi1 : (i 1).val < 128 := (i 1).isLt
    have hN : cfg0.N = 25 := N_0
    obtain ⟨-, -, -, -, e4, e5⟩ := idx0 ⟨(i 0).val / 2000, by rw [hN]; omega⟩
    refine ⟨⟨(i 0).val / 2000, by rw [hN]; omega⟩, flush0_2 _, ?_⟩
    rw [mem_blk0]
    intro a
    match a with
    | ⟨0, _⟩ =>
      show win0_2.index ⟨(i 0).val / 2000, _⟩ (0 : Fin 2) * 2000 ≤ (i 0).val ∧ (i 0).val < win0_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, _⟩ (1 : Fin 2) * 128 ≤ (i 1).val ∧ (i 1).val < win0_2.index ⟨(i 0).val / 2000, _⟩ (1 : Fin 2) * 128 + 128
      rw [e5]; omega

end Cert.KernelIdeal.Net

end
-- ==== Proof.Product2.lean ====
/-
  The second matrix product, hidden · W2, as the pipelined region leaves it: for any contents V of the buffers when
  the region is entered, the result array ends at the exact product of the arrays V holds for the two operands.

  The grid has 25 points; point t stages rows 2000·t … 2000·t + 1999 of the left operand (all 128 columns) and the whole
  right operand, and writes back rows 2000·t … 2000·t + 1999 of the result. At entry (p, q) of its block the body's
  value is the sum over k < 128 of lhs[p, k] · rhs[k, q] (a cast to the same shape and a rounding of an exact value
  change nothing), which is entry (2000·t + p, q) of the whole product. The 25 row blocks tile the result.
-/
import proofs.«160165_j14602888806887_1_alg».proof.Proof.Gen.KernelIdeal.Frame
import proofs.«160165_j14602888806887_1_alg».proof.Proof.LibPlainContract
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off' : (![0, 0] : Fin 2 → Nat) = fun _ => 0 := funext fun a => by fin_cases a <;> rfl

/-- The body's value at entry (p, q) of its block. -/
theorem pay1_apply (x0 : Vec Ideal S2000x128 .f32) (x1 : Vec Ideal S128x40 .f32) (p : Fin 2000) (q : Fin 40) :
    k1_pay1 x0 x1 (ix2 p q) = ∑ k : Fin 128, x0 (ix2 p k) * x1 (ix2 k q) := by
  unfold k1_pay1
  refine (Cert.LibPlainContract.matmul_plain_apply 2000 128 40 none _ _ p q).trans ?_
  refine Finset.sum_congr rfl fun k _ => congrArg₂ (· * ·) ?_ rfl
  exact congrFun (shapeCast_self (x0 : S2000x128.Idx → Elt Ideal .f32) _) (ix2 p k)

/-- The windows' block indices at every grid point: the left operand and the result move down one row block per
    point, the right operand stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 2000·t … of the array. -/
theorem lhs1_apply (c : Dev nD) (t : Fin cfg1.N) (p : Fin 2000) (k : Fin 128) (r : Fin 50000) (hr : r.val = t.val * 2000 + p.val) :
    (iblk1 V c 0 t : Vec Ideal S2000x128 .f32) (ix2 p k) = (V c main_v49 : S50000x128.Idx → Elt Ideal .f32) (ix2 r k) := by
  obtain ⟨e0, e1, -⟩ := idx1 t
  unfold iblk1
  rw [View.read_apply]
  show V c main_v49 _ = V c main_v49 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The right operand's block at every point is the whole array. -/
theorem rhs1_apply (c : Dev nD) (t : Fin cfg1.N) (k : Fin 128) (q : Fin 40) :
    (iblk1 V c 1 t : Vec Ideal S128x40 .f32) (ix2 k q) = (V c main_arg5 : S128x40.Idx → Elt Ideal .f32) (ix2 k q) := by
  obtain ⟨-, -, e2, e3, -⟩ := idx1 t
  unfold iblk1
  rw [View.read_apply]
  show V c main_arg5 _ = V c main_arg5 _
  refine congrArg _ (funext fun a => Fin.ext ?_)
  match a with
  | ⟨0, _⟩ => show win1_1.index t (0 : Fin 2) * 128 + 1 * k.val = k.val; rw [e2]; omega
  | ⟨1, _⟩ => show win1_1.index t (1 : Fin 2) * 40 + 1 * q.val = q.val; rw [e3]; omega

/-- What point t writes back is block t of the whole product. -/
theorem flushed1 (c : Dev nD) (t : Fin cfg1.N) :
    (dat1 V c).flushed 2 t = ((cfg1.win 2).blk t).view.read (Elt Ideal)
      (Host.dotGeneral (F := Ideal) (φ₁ := .f32) (φ₂ := .f32) (DotDims.plain 50000 128 40) none (V c main_v49 : FVec Ideal S50000x128 .f32) (V c main_arg5 : FVec Ideal S128x40 .f32)) := by
  show (cfg1.win 2).cut (grid1.coords t) ((dat1 V c).after 2 t) = _
  rw [after1_2]
  unfold out1_2
  rw [View.canon_unit_zero zero_off']
  simp only [View.ld_unit_zero (S := S2000x128) zero_off', View.ld_unit_zero (S := S128x40) zero_off']
  funext j
  obtain ⟨p, q, rfl⟩ : ∃ (p : Fin 2000) (q : Fin 40), j = ix2 p q :=
    ⟨⟨(j 0).val, (j 0).isLt⟩, ⟨(j 1).val, (j 1).isLt⟩, by funext a; match a with | ⟨0, _⟩ => rfl | ⟨1, _⟩ => rfl⟩
  obtain ⟨-, -, -, -, e4, e5⟩ := idx1 t
  have hN : t.val < 25 := Nat.lt_of_lt_of_eq t.isLt (N_1 : cfg1.N = 25)
  have hp : p.val < 2000 := p.isLt
  have hemb : ((cfg1.win 2).blk t).view.emb (ix2 p q) = ix2 (⟨t.val * 2000 + p.val, by omega⟩ : Fin 50000) q := by
    funext a; apply Fin.ext
    match a with
    | ⟨0, _⟩ => show win1_2.index t (0 : Fin 2) * 2000 + 1 * p.val = t.val * 2000 + p.val; rw [e4]; omega
    | ⟨1, _⟩ => show win1_2.index t (1 : Fin 2) * 40 + 1 * q.val = q.val; rw [e5]; omega
  show k1_pay1 (iblk1 V c 0 t) (iblk1 V c 1 t) (ix2 p q)
    = FloatOps.dotGeneral (F := Ideal) (φ₁ := .f32) (φ₂ := .f32) (DotDims.plain 50000 128 40) none .single (V c main_v49 : FVec Ideal S50000x128 .f32) (V c main_arg5 : FVec Ideal S128x40 .f32) (((cfg1.win 2).blk t).view.emb (ix2 p q))
  rw [hemb]
  refine (pay1_apply _ _ p q).trans ?_
  refine Eq.trans ?_ (Cert.LibPlainContract.dotGeneral_plain_apply 50000 128 40 none .single _ _ _ q).symm
  exact Finset.sum_congr rfl fun k _ => congrArg₂ (· * ·) (lhs1_apply V c t p k _ rfl) (rhs1_apply V c t k q)

/-- An index of the result is in point t's block iff each coordinate is in the block's range on its axis. -/
theorem mem_blk1 (t : Fin cfg1.N) (i : S50000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v50).slice (win1_2.rect t)).set ↔ _
  rw [View.set_slice_whole, Rect.mem_set_unit]
  exact Iff.rfl

/-- The result array after the region: the exact product of the two operand arrays as the region found them. -/
theorem final1 (c : Dev nD) :
    (dat1 V c).arrAt 2 cfg1.N = Host.dotGeneral (F := Ideal) (φ₁ := .f32) (φ₂ := .f32) (DotDims.plain 50000 128 40) none (V c main_v49 : FVec Ideal S50000x128 .f32) (V c main_arg5 : FVec Ideal S128x40 .f32) :=
  (dat1 V c).arrAt_eq_of_cover 2 _ (fun t _ => flushed1 V c t) fun i => by
    have hi0 : (i 0).val < 50000 := (i 0).isLt
    have hi1 : (i 1).val < 40 := (i 1).isLt
    have hN : cfg1.N = 25 := N_1
    obtain ⟨-, -, -, -, e4, e5⟩ := idx1 ⟨(i 0).val / 2000, by rw [hN]; omega⟩
    refine ⟨⟨(i 0).val / 2000, by rw [hN]; omega⟩, flush1_2 _, ?_⟩
    rw [mem_blk1]
    intro a
    match a with
    | ⟨0, _⟩ =>
      show win1_2.index ⟨(i 0).val / 2000, _⟩ (0 : Fin 2) * 2000 ≤ (i 0).val ∧ (i 0).val < win1_2.index ⟨(i 0).val / 2000, _⟩ (0 : Fin 2) * 2000 + 2000
      rw [e4]; show (i 0).val / 2000 * 2000 ≤ (i 0).val ∧ (i 0).val < (i 0).val / 2000 * 2000 + 2000; omega
    | ⟨1, _⟩ =>
      show win1_2.index ⟨(i 0).val / 2000, _⟩ (1 : Fin 2) * 40 ≤ (i 1).val ∧ (i 1).val < win1_2.index ⟨(i 0).val / 2000, _⟩ (1 : Fin 2) * 40 + 40
      rw [e5]; omega

end Cert.KernelIdeal.Net

end
-- ==== Proof.KernelRun.lean ====
/-
  The idealized kernel's whole run with its result kept: every weakly fair execution of @main terminates without a
  fault, the seven argument arrays end as launched, and the result array ends at the last boundary's contents — the
  launch memory folded through the host lines before the first product, the first product's write-backs, the host
  lines of the first layer, the second product's write-backs, and the host lines of the second layer.
-/
import proofs.«160165_j14602888806887_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Net

end
-- ==== Proof.KernelValue.lean ====
/-
  The idealized kernel's result is the network function of its arguments.

  Reading the run's last boundary backwards: the output lines aggregate the second product over the edge lists and
  coefficients built before the first product, which no later line or region rewrites; the second product is the
  exact product of the hidden features and W2; the hidden features are the first layer's aggregation, bias and clamp
  of the first product; the first product is the exact product of x and W1, both still as launched when its region is
  entered. Substituting each into the next gives the network function, the two exact products where the reference
  has its two host products.
-/
import proofs.«160165_j14602888806887_1_alg».proof.Proof.HostLines
import proofs.«160165_j14602888806887_1_alg».proof.Proof.Product1
import proofs.«160165_j14602888806887_1_alg».proof.Proof.Product2
import proofs.«160165_j14602888806887_1_alg».proof.Proof.KernelRun

set_option maxRecDepth 16384

noncomputable section

namespace Cert.KernelIdeal.Net

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first product as the lines after it find it: x · W1 of the launched arrays. -/
theorem first_product (c : Dev nD) : W4 m ρ c (Proc.devRef .tc main_v32)
    = Host.dotGeneral (F := Ideal) (φ₁ := .f32) (φ₂ := .f32) (DotDims.plain 50000 256 128) none (m ((c : Thread nD τ).loc main_arg0)) (m ((c : Thread nD τ).loc main_arg3)) := by
  refine (W4_arr m ρ c 2).trans ((final0 (V3 m ρ) c).trans ?_)
  show Host.dotGeneral (F := Ideal) (φ₁ := .f32) (φ₂ := .f32) (DotDims.plain 50000 256 128) none
      (W3 m ρ c (Proc.devRef .tc main_arg0)) (W3 m ρ c (Proc.devRef .tc main_arg3)) = _
  rw [entry_arg0, entry_arg3]

/-- The hidden features when the second product's region is entered. -/
theorem hidden_features (c : Dev nD) : W6 m ρ c (Proc.devRef .tc main_v49)
    = Cert.Gcn.hidden (m ((c : Thread nD τ).loc main_arg1)) (m ((c : Thread nD τ).loc main_arg2))
        (Host.dotGeneral (F := Ideal) (φ₁ := .f32) (φ₂ := .f32) (DotDims.plain 50000 256 128) none (m ((c : Thread nD τ).loc main_arg0)) (m ((c : Thread nD τ).loc main_arg3)))
        (m ((c : Thread nD τ).loc main_arg4)) := by
  rw [mid_hidden, W4_of_ne m ρ c main_v5 (by decide), W4_of_ne m ρ c main_v6 (by decide), W4_of_ne m ρ c main_v31 (by decide),
    W4_of_ne m ρ c main_arg4 (by decide), first_product, entry_src, entry_dst, entry_norm, entry_arg4]
  rfl

/-- The second product as the output lines find it: hidden · W2. -/
theorem second_product (c : Dev nD) : W7 m ρ c (Proc.devRef .tc main_v50)
    = Host.dotGeneral (F := Ideal) (φ₁ := .f32) (φ₂ := .f32) (DotDims.plain 50000 128 40) none
        (Cert.Gcn.hidden (m ((c : Thread nD τ).loc main_arg1)) (m ((c : Thread nD τ).loc main_arg2))
          (Host.dotGeneral (F := Ideal) (φ₁ := .f32) (φ₂ := .f32) (DotDims.plain 50000 256 128) none (m ((c : Thread nD τ).loc main_arg0)) (m ((c : Thread nD τ).loc main_arg3)))
          (m ((c : Thread nD τ).loc main_arg4)))
        (m ((c : Thread nD τ).loc main_arg5)) := by
  refine (W7_arr m ρ c 2).trans ((final1 (V6 m ρ) c).trans ?_)
  show Host.dotGeneral (F := Ideal) (φ₁ := .f32) (φ₂ := .f32) (DotDims.plain 50000 128 40) none
      (W6 m ρ c (Proc.devRef .tc main_v49)) (W6 m ρ c (Proc.devRef .tc main_arg5)) = _
  rw [hidden_features, mid_arg5, W4_of_ne m ρ c main_arg5 (by decide), entry_arg5]

/-- The result array at the end of the run is the network of the seven launched arrays. -/
theorem result_is_net (c : Dev nD) : W8 m ρ c (Proc.devRef .tc main_v66)
    = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [out_lines, second_product,
    W7_of_ne m ρ c main_v5 (by decide), W7_of_ne m ρ c main_v6 (by decide), W7_of_ne m ρ c main_v31 (by decide), W7_of_ne m ρ c main_arg6 (by decide),
    mid_src, mid_dst, mid_norm, mid_arg6,
    W4_of_ne m ρ c main_v5 (by decide), W4_of_ne m ρ c main_v6 (by decide), W4_of_ne m ρ c main_v31 (by decide), W4_of_ne m ρ c main_arg6 (by decide),
    entry_src, entry_dst, entry_norm, entry_arg6]
  rfl

/-- The run, read: the result at the network of the arguments, the arguments unchanged. -/
theorem run_net : θ_run defs (onTc (τ := τ) (main (F := Ideal))) ⟨m, fun _ => 0, ρ⟩ (fun r => ∀ c : Dev nD,
      r.2.mem ((c.tc : Thread nD τ).loc main_v66)
        = Cert.Gcn.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_is_net m ρ c), (h c).2⟩) (run_result m ρ)

end Cert.KernelIdeal.Net

end
-- ==== Proof.RefNet.lean ====
/-
  The reference program's result is the network function of its arguments: its operations, composed in order, are
  the pieces of the specification one for one (the normalisation is computed once per layer there, to the same term).
-/
import proofs.«160165_j14602888806887_1_alg».proof.Proof.Spec
import proofs.«160165_j14602888806887_1_alg».proof.Proof.Gen.ReferenceIdeal.Run

noncomputable section

namespace Cert.Gcn

open Idealize.ShloMosaic Idealize.ShloMosaic.TcCoe Idealize.SL.Sem Cert.ReferenceIdeal

variable {F : FTy → Type} [FloatOps F]

set_option maxRecDepth 16384 in
theorem ref_is_net (m : (ℓ : Loc nD τ sig) → Buf (Elt F) ℓ) (c : Dev nD) :
    Cert.ReferenceIdeal.Value.res_main_v94 m c
      = net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.Value.res_main_v94 net output hidden agg40 agg128 relu128 normOf dinvOf degOf wrapOf colOf wOf srcOf dstOf
  rfl

end Cert.Gcn

end
-- ==== Proof.lean ====
/-
  A two-layer graph convolution, the kernel against its reference, equal over the extended reals.

  Both programs take node features x, an edge index array, edge weights and two weight/bias pairs, append a
  self-loop of weight 1 per node, normalise every edge by deg^(-1/2) at both ends (0 where the degree is not
  positive), and compute layer₂(relu(layer₁(x · W1, b1)) · W2, b2), where a layer gathers the rows of its input at
  the edge sources, scales them, sums them into the edge destinations and adds the bias. The two differ in two ways
  only. The kernel computes each of the two matrix products in a pipelined region, 2000 rows per grid point, rounding
  the operands to a narrower format on the way in; read exactly, rounding is the identity and the row blocks tile the
  result, so each region leaves the exact product, which is what the reference's host product is. And the reference
  builds the edge lists and coefficients once per layer, to the same value both times. Everything else is the same
  host operations on both sides, carried as one function and never opened. No law used needs a finite input.

  The three frames: the kernel's two (as printed, and idealized) are the generated frame theorems; the reference's
  is its run with the result dropped. The idealization rewrote nothing, so there is nothing to preserve.
-/
import proofs.«160165_j14602888806887_1_alg».proof.Defs
import proofs.«160165_j14602888806887_1_alg».proof.Proof.Gen.Kernel
import proofs.«160165_j14602888806887_1_alg».proof.Proof.Gen.Kernel.Frame
import proofs.«160165_j14602888806887_1_alg».proof.Proof.Gen.KernelIdeal
import proofs.«160165_j14602888806887_1_alg».proof.Proof.Gen.KernelIdeal.Frame
import proofs.«160165_j14602888806887_1_alg».proof.Proof.Gen.ReferenceIdeal
import proofs.«160165_j14602888806887_1_alg».proof.Proof.Gen.Pre_finite_inputs
import proofs.«160165_j14602888806887_1_alg».proof.Proof.Gen.ReferenceIdeal.Run
import proofs.«160165_j14602888806887_1_alg».proof.Proof.KernelValue
import proofs.«160165_j14602888806887_1_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the network function of the (agreeing) arguments. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Net.run_net m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.Gcn.ref_is_net, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
